-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 111
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x128, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000, .f32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x64, .f32⟩
  | .hbm, ⟨96, _⟩ => ⟨S1600000x1, .f32⟩
  | .hbm, ⟨97, _⟩ => ⟨S1600000x64, .f32⟩
  | .hbm, ⟨98, _⟩ => ⟨S1600000x64, .f32⟩
  | .hbm, ⟨99, _⟩ => ⟨S_, .f32⟩
  | .hbm, ⟨100, _⟩ => ⟨S100000x64, .f32⟩
  | .hbm, ⟨101, _⟩ => ⟨S1600000x1, .i32⟩
  | .hbm, ⟨102, _⟩ => ⟨S100000x64, .f32⟩
  | .hbm, ⟨103, _⟩ => ⟨S100000, .f32⟩
  | .hbm, ⟨104, _⟩ => ⟨S100000x1, .f32⟩
  | .hbm, ⟨105, _⟩ => ⟨S100000x64, .f32⟩
  | .hbm, ⟨106, _⟩ => ⟨S100000x64, .f32⟩
  | .hbm, ⟨107, _⟩ => ⟨S100000x64, .f32⟩
  | .hbm, ⟨108, _⟩ => ⟨S1x64, .f32⟩
  | .hbm, ⟨109, _⟩ => ⟨S100000x64, .f32⟩
  | .hbm, ⟨110, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_10 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Layers.lean ====
/-
  A two-layer graph convolution, as the jnp program spells it on the host, cut into named functions.

  Nodes carry feature rows; an edge `e` goes from node `src e` to node `dst e`. With `deg i` one plus the
  number of edges ending at `i` and `dinv = deg^(-1/2)`, one convolution of a feature table `h` is

    out i = (sum over the edges e ending at i of h (src e) * (dinv (src e) * dinv (dst e))) + h i * (dinv i * dinv i) + b,

  the edge sum being a scatter-add of gathered rows. Everything below is that text and nothing else: the functions are
  the host operations in the order the program applies them, applied to the tables they read. The whole program is
  `conv64 (relu128 (conv128 (x W1)) W2)`: two such convolutions around a rectified linear unit, each fed by a matrix
  product.
-/
import proofs.«174465_j8108898255681_1_alg».proof.Proof.Gen.ReferenceIdeal.Run
import Idealize.ShloMosaic.PureOps.Ideal

noncomputable section

namespace Cert.Gcn

open Idealize.ShloMosaic Idealize.ShloMosaic.TcCoe Idealize.SL.Sem Cert.ReferenceIdeal Cert.ReferenceIdeal.Gen

/-- An id table of one entry per edge, a table of one real per node, and feature tables of 128 and of 64 columns. -/
abbrev Ids := IVec S1600000 32
abbrev NodeVec := FVec Ideal S100000 .f32
abbrev Feat128 := FVec Ideal S100000x128 .f32
abbrev Feat64 := FVec Ideal S100000x64 .f32

/-- Row `r` of the edge table, as a vector of ids: row 0 holds the sources, row 1 the destinations. -/
def srcOf (e : IVec S2x1600000 32) : Ids :=
  shapeCast _ (extractStridedSlice S1x1600000 ![0, 0] e slices_S2x1600000_S1x1600000_0_0) shapeCasts_S1x1600000_S1600000
def dstOf (e : IVec S2x1600000 32) : Ids :=
  shapeCast _ (extractStridedSlice S1x1600000 ![1, 0] e slices_S2x1600000_S1x1600000_1_0) shapeCasts_S1x1600000_S1600000

/-- `deg^(-1/2)`: ones scattered onto the destinations, plus one for the node's own loop, then the inverse square root. -/
def dinvOf (dst : Ids) : NodeVec :=
  Host.rsqrt (F := Ideal) (addf (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32)))

/-- Ids as a gather reads them: a negative id counted from the end, the vector laid as a column. -/
def wrapIds (ids : Ids) : IVec S1600000x1 32 :=
  broadcastInDim S1600000x1 ![0] bcast_S1600000_S1600000x1_0
    (select (cmpi .slt ids (broadcastInDim S1600000 ![] bcast_S_S1600000 (constantI S_ 32 0#32)))
      (addi ids (broadcastInDim S1600000 ![] bcast_S_S1600000 (constantI S_ 32 100000#32))) ids)

/-- The weight of an edge: `dinv (src e) * dinv (dst e)`. -/
def edgeNorm (src dst : Ids) (dinv : NodeVec) : FVec Ideal S1600000 .f32 :=
  mulf (Host.gather gather_S100000_S1600000x1_S1600000_n_0_n_n_0_1_1 dinv (wrapIds src))
    (Host.gather gather_S100000_S1600000x1_S1600000_n_0_n_n_0_1_1 dinv (wrapIds dst))

/-- One convolution of a table of 128 columns: the weighted rows of the sources summed at the destinations, the node's
    own row weighted by `dinv * dinv`, and the bias. -/
def conv128 (h : Feat128) (src dst : Ids) (dinv : NodeVec) (b : FVec Ideal S128 .f32) : Feat128 :=
  addf (addf (Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 dst)
        (mulf (Host.gather gather_S100000x128_S1600000x1_S1600000x128_1_0_n_n_0_1_1128 h (wrapIds src))
          (broadcastInDim S1600000x128 ![0, 1] bcast_S1600000x1_S1600000x128_0_1
            (broadcastInDim S1600000x1 ![0] bcast_S1600000_S1600000x1_0 (edgeNorm src dst dinv)))))
      (mulf h (broadcastInDim S100000x128 ![0, 1] bcast_S100000x1_S100000x128_0_1
        (broadcastInDim S100000x1 ![0] bcast_S100000_S100000x1_0 (mulf dinv dinv)))))
    (broadcastInDim S100000x128 ![0, 1] bcast_S1x128_S100000x128_0_1 (broadcastInDim S1x128 ![1] bcast_S128_S1x128_1 b))

/-- The rectified linear unit of a table of 128 columns: the maximum with zero, entry by entry. -/
def relu128 (v : Feat128) : Feat128 :=
  maximumf v (broadcastInDim S100000x128 ![] bcast_S_S100000x128 (constant (F := Ideal) S_ .f32 0x00000000#32))

/-- The same convolution of a table of 64 columns. -/
def conv64 (h : Feat64) (src dst : Ids) (dinv : NodeVec) (b : FVec Ideal S64 .f32) : Feat64 :=
  addf (addf (Host.scatterAdd (F := Ideal) scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 dst)
        (mulf (Host.gather gather_S100000x64_S1600000x1_S1600000x64_1_0_n_n_0_1_164 h (wrapIds src))
          (broadcastInDim S1600000x64 ![0, 1] bcast_S1600000x1_S1600000x64_0_1
            (broadcastInDim S1600000x1 ![0] bcast_S1600000_S1600000x1_0 (edgeNorm src dst dinv)))))
      (mulf h (broadcastInDim S100000x64 ![0, 1] bcast_S100000x1_S100000x64_0_1
        (broadcastInDim S100000x1 ![0] bcast_S100000_S100000x1_0 (mulf dinv dinv)))))
    (broadcastInDim S100000x64 ![0, 1] bcast_S1x64_S100000x64_0_1 (broadcastInDim S1x64 ![1] bcast_S64_S1x64_1 b))

/-- The two matrix products, as the host's `dot_general`: rows of the left table against columns of the weights. -/
def proj128 (x : Feat128) (w : FVec Ideal S128x128 .f32) : Feat128 :=
  Host.dotGeneral (F := Ideal) dot_S100000x128_S128x128_S100000x128_1_0_0_1_n_n none x w
def proj64 (x : Feat128) (w : FVec Ideal S128x64 .f32) : Feat64 :=
  Host.dotGeneral (F := Ideal) dot_S100000x128_S128x64_S100000x64_1_0_0_1_n_n none x w

/-- The whole network, from the six argument tables. -/
def gcn (x : Feat128) (e : IVec S2x1600000 32) (w1 : FVec Ideal S128x128 .f32)
    (b1 : FVec Ideal S128 .f32) (w2 : FVec Ideal S128x64 .f32)
    (b2 : FVec Ideal S64 .f32) : Feat64 :=
  conv64 (proj64 (relu128 (conv128 (proj128 x w1) (srcOf e) (dstOf e) (dinvOf (dstOf e)) b1)) w2)
    (srcOf e) (dstOf e) (dinvOf (dstOf e)) b2

/-- The reference program's result IS the network of its arguments: its composed term is this text, the degree
    table written out at each of its uses. -/
theorem reference_eq (m : (ℓ : Loc nD τ sig) → Buf (Elt Ideal) ℓ) (c : Dev nD) :
    Cert.ReferenceIdeal.Value.res_main_v92 (F := Ideal) m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v92 gcn conv64 proj64 relu128 conv128 proj128 edgeNorm wrapIds dinvOf srcOf dstOf
  rfl

end Cert.Gcn

end
-- ==== Proof.KernelRun.lean ====
/-
  The idealized kernel's run, with its result named.

  @main is six segments: host operations, the first matrix product's region, host operations (twice), the second
  product's region, host operations. The buffer contents at each boundary are a fold from the launch memory (`W0` … `W6`
  of the generated frame: a host stretch applies its operations, a region replaces its arrays by what its write-backs
  leave). The library's launch theorem for a program of several regions runs the segments one after the other over the
  thread state "every unscoped buffer at the boundary's contents"; at the end every unscoped buffer of the device holds
  `W6` there. Read at the result buffer that is the result; read at an argument it is the argument as launched.
-/
import proofs.«174465_j8108898255681_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents `W6` and the six argument arrays end as launched. -/
theorem run_result : θ_run defs (onTc (τ := τ) (main (F := F))) ⟨m, fun _ => 0, ρ⟩ (fun r => ∀ c : Dev nD,
      r.2.mem ((c.tc : Thread nD τ).loc main_v85) = W6 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch's ghost state: the staging cells' tokens, and nothing beside them
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      -- each segment is entered from what the one before it leaves; the last leaves the buffers at `W6`
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- at launch the unscoped buffers hold the launch memory, which is `W0`
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      -- holding every unscoped buffer at `W6`, the final memory reads `W6` at each of them
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v85 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Run

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.Region0.lean ====
/-
  The first matrix product as the pipeline computes it, read back whole.

  The grid has 20 points; point `t` is handed rows `5000 t … 5000 t + 4999` of the left table (all 128 columns) and the
  whole 128×128 weight table, and writes rows `5000 t … 5000 t + 4999` of the result: entry `(p, q)` of its block is
  `∑ k, left (5000 t + p, k) * weight (k, q)` — a change of float format is the identity on the extended reals and the
  accumulator starts at zero. That is entry `(5000 t + p, q)` of the product of the whole tables, the twenty row blocks
  tile the 100000 rows, so the array the region leaves is the product of the two arrays it was entered with.
-/
import proofs.«174465_j8108898255681_1_alg».proof.Proof.Gen.KernelIdeal.Frame
import proofs.«174465_j8108898255681_1_alg».proof.Proof.LibPlainMatmul
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a whole-buffer access, as a constant function. -/
theorem hz : (![0, 0] : Fin 2 → Nat) = fun _ => 0 := funext fun a => by fin_cases a <;> rfl

/-- The body's stored value at entry `(p, q)` of its block: the row `p` of the left block against column `q` of the weights. -/
theorem product_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.PlainMatmul.matmul_zero_apply (M := 5000) (K := 128) (N := 128) none _ _ p q

/-- Where each window's block sits at point `t`: the left table's and the result's at row block `t`, the weights' at the
    origin (decided over the twenty points). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 20 :=
  (by decide +kernel : ∀ t : Fin grid0.N, _)

variable (V : (c : Dev nD) → (b : Ref sig .tc) → Buf (Elt Ideal) ((c : Thread nD τ).loc b))

/-- The product of the two whole tables the region is entered with. -/
abbrev whole (c : Dev nD) : S100000x128.Idx → EReal :=
  Host.dotGeneral (F := Ideal) (φ₁ := .f32) (φ₂ := .f32) (DotDims.plain 100000 128 128) none
    (V c main_arg0 : S100000x128.Idx → EReal) (V c main_arg2 : S128x128.Idx → EReal)

/-- Row `p` of the left block at point `t` is row `5000 t + p` of the left table. -/
theorem left_apply (c : Dev nD) (t : Fin cfg0.N) (p : Fin 5000) (k : Fin 128) (r : Fin 100000) (hr : r.val = t.val * 5000 + p.val) :
    (iblk0 V c 0 t : Vec Ideal S5000x128 .f32) (ix2 p k) = (V c main_arg0 : S100000x128.Idx → EReal) (ix2 r k) := by
  obtain ⟨e0, e1, -⟩ := block_index t
  unfold iblk0
  rw [View.read_apply]
  show V c main_arg0 (((cfg0.win 0).blk t).view.emb (ix2 p k)) = V c main_arg0 (ix2 r k)
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weight block at every point is the weight table. -/
theorem weight_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e0, e1, -⟩ := block_index t
  unfold iblk0
  rw [View.read_apply]
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; rw [e0]; omega
  | ⟨1, _⟩ => show win0_1.index t (1 : Fin 2) * 128 + 1 * q.val = q.val; rw [e1]; omega

/-- WHAT POINT `t` WRITES BACK is its row block of the whole product. -/
theorem written_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e0, e1, ht⟩ := block_index t
  funext j
  obtain ⟨p, q, rfl⟩ : ∃ (p : Fin 5000) (q : Fin 128), j = ix2 p q := ⟨j 0, j 1, eq_ix2 j⟩
  have hr : t.val * 5000 + p.val < 100000 := by have := p.isLt; omega
  have hemb : ((cfg0.win 2).blk t).view.emb (ix2 p q) = (ix2 (⟨t.val * 5000 + p.val, hr⟩ : Fin 100000) q : S100000x128.Idx) := by
    funext a; apply Fin.ext
    match a with
    | ⟨0, _⟩ => show win0_2.index t (0 : Fin 2) * 5000 + 1 * p.val = t.val * 5000 + p.val; rw [e0]; omega
    | ⟨1, _⟩ => show win0_2.index t (1 : Fin 2) * 128 + 1 * q.val = q.val; rw [e1]; omega
  show k0_pay1 (F := Ideal) (iblk0 V c 0 t) (iblk0 V c 1 t) (ix2 p q) = whole V c (((cfg0.win 2).blk t).view.emb (ix2 p q))
  rw [hemb]
  refine (product_apply (iblk0 V c 0 t) (iblk0 V c 1 t) p q).trans ?_
  refine Eq.trans ?_ (Cert.PlainMatmul.dotGeneral_apply (M := 100000) (K := 128) (N := 128) none _ _ ⟨t.val * 5000 + p.val, hr⟩ q).symm
  refine Finset.sum_congr rfl fun k _ => ?_
  rw [left_apply V c t p k ⟨t.val * 5000 + p.val, hr⟩ rfl, weight_apply V c t k q]

/-- An index of the result is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v11).slice (win0_2.rect t)).set ↔ _
  rw [View.set_slice_whole, Rect.mem_set_unit]
  exact Iff.rfl

/-- Every row of the result is in the block of the point its number divided by 5000 names. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  obtain ⟨-, -, -, -, e0, e1, -⟩ := block_index ⟨(i 0).val / 5000, by rw [hN]; omega⟩
  rw [mem_block]
  intro a
  match a with
  | ⟨0, _⟩ => show win0_2.index _ (0 : Fin 2) * 5000 ≤ (i 0).val ∧ (i 0).val < win0_2.index _ (0 : Fin 2) * 5000 + 5000; rw [e0]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e1]; omega

/-- THE RESULT ARRAY after the region: the product of the two arrays the region was entered with. -/
theorem result_eq (c : Dev nD) : (dat0 V c).arrAt 2 cfg0.N = whole V c :=
  (dat0 V c).arrAt_eq_of_cover 2 (whole V c) (fun t _ => written_eq V c t) covered

end Cert.KernelIdeal.Region0

end
-- ==== Proof.Region1.lean ====
/-
  The second matrix product as the pipeline computes it, read back whole.

  The grid has 20 points; point `t` is handed rows `5000 t … 5000 t + 4999` of the left table (all 128 columns) and the
  whole 128×64 weight table, and writes rows `5000 t … 5000 t + 4999` of the result: entry `(p, q)` of its block is
  `∑ k, left (5000 t + p, k) * weight (k, q)` — a change of float format is the identity on the extended reals, so is a
  shape cast to the same shape, and the accumulator starts at zero. That is entry `(5000 t + p, q)` of the product of the whole tables, the twenty row blocks
  tile the 100000 rows, so the array the region leaves is the product of the two arrays it was entered with.
-/
import proofs.«174465_j8108898255681_1_alg».proof.Proof.Gen.KernelIdeal.Frame
import proofs.«174465_j8108898255681_1_alg».proof.Proof.LibPlainMatmul
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a whole-buffer access, as a constant function. -/
theorem hz : (![0, 0] : Fin 2 → Nat) = fun _ => 0 := funext fun a => by fin_cases a <;> rfl

/-- The body's stored value at entry `(p, q)` of its block: the row `p` of the left block against column `q` of the weights. -/
theorem product_apply (x0 : Vec Ideal S5000x128 .f32) (x1 : Vec Ideal S128x64 .f32) (p : Fin 5000) (q : Fin 64) :
    k1_pay1 (F := Ideal) x0 x1 (ix2 p q) = ∑ k : Fin 128, x0 (ix2 p k) * x1 (ix2 k q) := by
  unfold k1_pay1
  simp only [shapeCast_self]
  exact Cert.PlainMatmul.matmul_zero_apply (M := 5000) (K := 128) (N := 64) none _ _ p q

/-- Where each window's block sits at point `t`: the left table's and the result's at row block `t`, the weights' at the
    origin (decided over the twenty points). -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 20 :=
  (by decide +kernel : ∀ t : Fin grid1.N, _)

variable (V : (c : Dev nD) → (b : Ref sig .tc) → Buf (Elt Ideal) ((c : Thread nD τ).loc b))

/-- The product of the two whole tables the region is entered with. -/
abbrev whole (c : Dev nD) : S100000x64.Idx → EReal :=
  Host.dotGeneral (F := Ideal) (φ₁ := .f32) (φ₂ := .f32) (DotDims.plain 100000 128 64) none
    (V c main_v48 : S100000x128.Idx → EReal) (V c main_arg4 : S128x64.Idx → EReal)

/-- Row `p` of the left block at point `t` is row `5000 t + p` of the left table. -/
theorem left_apply (c : Dev nD) (t : Fin cfg1.N) (p : Fin 5000) (k : Fin 128) (r : Fin 100000) (hr : r.val = t.val * 5000 + p.val) :
    (iblk1 V c 0 t : Vec Ideal S5000x128 .f32) (ix2 p k) = (V c main_v48 : S100000x128.Idx → EReal) (ix2 r k) := by
  obtain ⟨e0, e1, -⟩ := block_index t
  unfold iblk1
  rw [View.read_apply]
  show V c main_v48 (((cfg1.win 0).blk t).view.emb (ix2 p k)) = V c main_v48 (ix2 r k)
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The weight block at every point is the weight table. -/
theorem weight_apply (c : Dev nD) (t : Fin cfg1.N) (k : Fin 128) (q : Fin 64) :
    (iblk1 V c 1 t : Vec Ideal S128x64 .f32) (ix2 k q) = (V c main_arg4 : S128x64.Idx → EReal) (ix2 k q) := by
  obtain ⟨-, -, e0, e1, -⟩ := block_index t
  unfold iblk1
  rw [View.read_apply]
  show V c main_arg4 (((cfg1.win 1).blk t).view.emb (ix2 k q)) = V c main_arg4 (ix2 k q)
  refine congrArg _ (funext fun a => Fin.ext ?_)
  match a with
  | ⟨0, _⟩ => show win1_1.index t (0 : Fin 2) * 128 + 1 * k.val = k.val; rw [e0]; omega
  | ⟨1, _⟩ => show win1_1.index t (1 : Fin 2) * 64 + 1 * q.val = q.val; rw [e1]; omega

/-- WHAT POINT `t` WRITES BACK is its row block of the whole product. -/
theorem written_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x64) hz]
  obtain ⟨-, -, -, -, e0, e1, ht⟩ := block_index t
  funext j
  obtain ⟨p, q, rfl⟩ : ∃ (p : Fin 5000) (q : Fin 64), j = ix2 p q := ⟨j 0, j 1, eq_ix2 j⟩
  have hr : t.val * 5000 + p.val < 100000 := by have := p.isLt; omega
  have hemb : ((cfg1.win 2).blk t).view.emb (ix2 p q) = (ix2 (⟨t.val * 5000 + p.val, hr⟩ : Fin 100000) q : S100000x64.Idx) := by
    funext a; apply Fin.ext
    match a with
    | ⟨0, _⟩ => show win1_2.index t (0 : Fin 2) * 5000 + 1 * p.val = t.val * 5000 + p.val; rw [e0]; omega
    | ⟨1, _⟩ => show win1_2.index t (1 : Fin 2) * 64 + 1 * q.val = q.val; rw [e1]; omega
  show k1_pay1 (F := Ideal) (iblk1 V c 0 t) (iblk1 V c 1 t) (ix2 p q) = whole V c (((cfg1.win 2).blk t).view.emb (ix2 p q))
  rw [hemb]
  refine (product_apply (iblk1 V c 0 t) (iblk1 V c 1 t) p q).trans ?_
  refine Eq.trans ?_ (Cert.PlainMatmul.dotGeneral_apply (M := 100000) (K := 128) (N := 64) none _ _ ⟨t.val * 5000 + p.val, hr⟩ q).symm
  refine Finset.sum_congr rfl fun k _ => ?_
  rw [left_apply V c t p k ⟨t.val * 5000 + p.val, hr⟩ rfl, weight_apply V c t k q]

/-- An index of the result is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v49).slice (win1_2.rect t)).set ↔ _
  rw [View.set_slice_whole, Rect.mem_set_unit]
  exact Iff.rfl

/-- Every row of the result is in the block of the point its number divided by 5000 names. -/
theorem covered (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  obtain ⟨-, -, -, -, e0, e1, -⟩ := block_index ⟨(i 0).val / 5000, by rw [hN]; omega⟩
  rw [mem_block]
  intro a
  match a with
  | ⟨0, _⟩ => show win1_2.index _ (0 : Fin 2) * 5000 ≤ (i 0).val ∧ (i 0).val < win1_2.index _ (0 : Fin 2) * 5000 + 5000; rw [e0]; show (i 0).val / 5000 * 5000 ≤ (i 0).val ∧ (i 0).val < (i 0).val / 5000 * 5000 + 5000; omega
  | ⟨1, _⟩ => show win1_2.index _ (1 : Fin 2) * 64 ≤ (i 1).val ∧ (i 1).val < win1_2.index _ (1 : Fin 2) * 64 + 64; rw [e1]; omega

/-- THE RESULT ARRAY after the region: the product of the two arrays the region was entered with. -/
theorem result_eq (c : Dev nD) : (dat1 V c).arrAt 2 cfg1.N = whole V c :=
  (dat1 V c).arrAt_eq_of_cover 2 (whole V c) (fun t _ => written_eq V c t) covered

end Cert.KernelIdeal.Region1

end
-- ==== Proof.KernelValue.lean ====
/-
  What the idealized kernel's result buffer holds after the run: the network of the six argument tables.

  The run's buffer contents are a fold through @main's six segments. Read one segment at a time:
  the first host stretch cuts the edge table into its two id rows and computes `deg^(-1/2)`; the first region leaves
  `x W1` (its twenty row blocks tile the table); the next stretch is the first convolution, then the rectified linear
  unit; the second region leaves the product of that table with `W2`; the last stretch is the second convolution. The
  id rows and `deg^(-1/2)` are written once and only read afterwards, so every later segment finds them as the first
  stretch left them, and no segment writes an argument.
-/
import proofs.«174465_j8108898255681_1_alg».proof.Proof.Gen.KernelIdeal.Frame
import proofs.«174465_j8108898255681_1_alg».proof.Proof.Region0
import proofs.«174465_j8108898255681_1_alg».proof.Proof.Region1
import proofs.«174465_j8108898255681_1_alg».proof.Proof.Layers
import Idealize.ShloMosaic.Lib.StableHlo.Run

set_option maxRecDepth 16384

noncomputable section

namespace Cert.KernelIdeal.Result

open Idealize.ShloMosaic Idealize.ShloMosaic.TcCoe Idealize.SL.Sem Idealize.ShloMosaic.StableHlo
open Cert.KernelIdeal Cert.KernelIdeal.Gen Cert.Gcn

/-! ## Each host stretch, from any contents `X` of the device's buffers -/

section Stretches

variable (X : Valuation τ sig (Elt Ideal))

/-- The first stretch leaves the source ids, the destination ids and `deg^(-1/2)` of the edge table it finds. -/
theorem ids_and_degree :
    after hostOps0 X (Proc.devRef .tc main_v1) = srcOf (X (Proc.devRef .tc main_arg1))
    ∧ after hostOps0 X (Proc.devRef .tc main_v3) = dstOf (X (Proc.devRef .tc main_arg1))
    ∧ after hostOps0 X (Proc.devRef .tc main_v10) = dinvOf (dstOf (X (Proc.devRef .tc main_arg1))) := by
  refine ⟨?_, ?_, ?_⟩ <;> (unfold hostOps0; after_results_simp; rfl)

/-- It writes none of the float arguments. -/
theorem ids_and_degree_keeps :
    after hostOps0 X (Proc.devRef .tc main_arg0) = X (Proc.devRef .tc main_arg0)
    ∧ after hostOps0 X (Proc.devRef .tc main_arg2) = X (Proc.devRef .tc main_arg2)
    ∧ after hostOps0 X (Proc.devRef .tc main_arg3) = X (Proc.devRef .tc main_arg3)
    ∧ after hostOps0 X (Proc.devRef .tc main_arg4) = X (Proc.devRef .tc main_arg4)
    ∧ after hostOps0 X (Proc.devRef .tc main_arg5) = X (Proc.devRef .tc main_arg5) := by
  refine ⟨?_, ?_, ?_, ?_, ?_⟩ <;> (unfold hostOps0; after_results_simp)

/-- The second stretch is the first convolution of the table it finds in the first product's buffer. -/
theorem first_conv :
    after hostOps1 X (Proc.devRef .tc main_v47)
      = conv128 (X (Proc.devRef .tc main_v11)) (X (Proc.devRef .tc main_v1)) (X (Proc.devRef .tc main_v3))
          (X (Proc.devRef .tc main_v10)) (X (Proc.devRef .tc main_arg3)) := by
  unfold hostOps1; after_results_simp; rfl

/-- It leaves the ids, `deg^(-1/2)` and the arguments read later where they are. -/
theorem first_conv_keeps :
    after hostOps1 X (Proc.devRef .tc main_v1) = X (Proc.devRef .tc main_v1)
    ∧ after hostOps1 X (Proc.devRef .tc main_v3) = X (Proc.devRef .tc main_v3)
    ∧ after hostOps1 X (Proc.devRef .tc main_v10) = X (Proc.devRef .tc main_v10)
    ∧ after hostOps1 X (Proc.devRef .tc main_arg4) = X (Proc.devRef .tc main_arg4)
    ∧ after hostOps1 X (Proc.devRef .tc main_arg5) = X (Proc.devRef .tc main_arg5) := by
  refine ⟨?_, ?_, ?_, ?_, ?_⟩ <;> (unfold hostOps1; after_results_simp)

/-- The third stretch is the rectified linear unit of the convolved table. -/
theorem rectified :
    after hostOps1_1 X (Proc.devRef .tc main_v48) = relu128 (X (Proc.devRef .tc main_v47)) := by
  unfold hostOps1_1; after_results_simp; rfl

theorem rectified_keeps :
    after hostOps1_1 X (Proc.devRef .tc main_v1) = X (Proc.devRef .tc main_v1)
    ∧ after hostOps1_1 X (Proc.devRef .tc main_v3) = X (Proc.devRef .tc main_v3)
    ∧ after hostOps1_1 X (Proc.devRef .tc main_v10) = X (Proc.devRef .tc main_v10)
    ∧ after hostOps1_1 X (Proc.devRef .tc main_arg4) = X (Proc.devRef .tc main_arg4)
    ∧ after hostOps1_1 X (Proc.devRef .tc main_arg5) = X (Proc.devRef .tc main_arg5) := by
  refine ⟨?_, ?_, ?_, ?_, ?_⟩ <;> (unfold hostOps1_1; after_results_simp)

/-- The last stretch is the second convolution of the table it finds in the second product's buffer. -/
theorem second_conv :
    after hostOps2 X (Proc.devRef .tc main_v85)
      = conv64 (X (Proc.devRef .tc main_v49)) (X (Proc.devRef .tc main_v1)) (X (Proc.devRef .tc main_v3))
          (X (Proc.devRef .tc main_v10)) (X (Proc.devRef .tc main_arg5)) := by
  unfold hostOps2; after_results_simp; rfl

end Stretches

/-! ## The buffers' contents, boundary by boundary -/

section Boundaries

variable (m : (ℓ : Loc nD τ sig) → Buf (Elt Ideal) ℓ) (ρ : Dev nD → PrngReg) (c : Dev nD)

/-- The six argument tables, as launched: node features, edge table, and the two layers' weights and biases. -/
abbrev argX : Feat128 := m ((c.tc : Thread nD τ).loc main_arg0)
abbrev argE : IVec S2x1600000 32 := m ((c.tc : Thread nD τ).loc main_arg1)
abbrev argW1 : FVec Ideal S128x128 .f32 := m ((c.tc : Thread nD τ).loc main_arg2)
abbrev argB1 : FVec Ideal S128 .f32 := m ((c.tc : Thread nD τ).loc main_arg3)
abbrev argW2 : FVec Ideal S128x64 .f32 := m ((c.tc : Thread nD τ).loc main_arg4)
abbrev argB2 : FVec Ideal S64 .f32 := m ((c.tc : Thread nD τ).loc main_arg5)

/-- The hidden table: the rectified first convolution of `x W1`. -/
abbrev hidden : Feat128 :=
  relu128 (conv128 (proj128 (argX m c) (argW1 m c)) (srcOf (argE m c)) (dstOf (argE m c)) (dinvOf (dstOf (argE m c))) (argB1 m c))

/-- When the first region is entered: the ids and `deg^(-1/2)` of the launched edge table, the float arguments as launched. -/
theorem entry_first :
    W1 m ρ c (Proc.devRef .tc main_v1) = srcOf (argE m c)
    ∧ W1 m ρ c (Proc.devRef .tc main_v3) = dstOf (argE m c)
    ∧ W1 m ρ c (Proc.devRef .tc main_v10) = dinvOf (dstOf (argE m c))
    ∧ W1 m ρ c (Proc.devRef .tc main_arg0) = argX m c
    ∧ W1 m ρ c (Proc.devRef .tc main_arg2) = argW1 m c
    ∧ W1 m ρ c (Proc.devRef .tc main_arg3) = argB1 m c
    ∧ W1 m ρ c (Proc.devRef .tc main_arg4) = argW2 m c
    ∧ W1 m ρ c (Proc.devRef .tc main_arg5) = argB2 m c := by
  obtain ⟨a, b, d⟩ := ids_and_degree (W0 m ρ c)
  obtain ⟨k0, k2, k3, k4, k5⟩ := ids_and_degree_keeps (W0 m ρ c)
  exact ⟨a, b, d, k0, k2, k3, k4, k5⟩

/-- When the first region is left: its result buffer holds `x W1`; the region writes nothing else. -/
theorem exit_first :
    W2 m ρ c (Proc.devRef .tc main_v11) = proj128 (argX m c) (argW1 m c)
    ∧ W2 m ρ c (Proc.devRef .tc main_v1) = srcOf (argE m c)
    ∧ W2 m ρ c (Proc.devRef .tc main_v3) = dstOf (argE m c)
    ∧ W2 m ρ c (Proc.devRef .tc main_v10) = dinvOf (dstOf (argE m c))
    ∧ W2 m ρ c (Proc.devRef .tc main_arg3) = argB1 m c
    ∧ W2 m ρ c (Proc.devRef .tc main_arg4) = argW2 m c
    ∧ W2 m ρ c (Proc.devRef .tc main_arg5) = argB2 m c := by
  obtain ⟨a, b, d, k0, k2, k3, k4, k5⟩ := entry_first m ρ c
  refine ⟨?_, (W2_of_ne m ρ c main_v1 (by decide)).trans a, (W2_of_ne m ρ c main_v3 (by decide)).trans b,
    (W2_of_ne m ρ c main_v10 (by decide)).trans d, (W2_of_ne m ρ c main_arg3 (by decide)).trans k3,
    (W2_of_ne m ρ c main_arg4 (by decide)).trans k4, (W2_of_ne m ρ c main_arg5 (by decide)).trans k5⟩
  refine (W2_arr m ρ c 2).trans ((Region0.result_eq (V1 m ρ) c).trans ?_)
  show Host.dotGeneral (F := Ideal) (φ₁ := .f32) (φ₂ := .f32) (DotDims.plain 100000 128 128) none
      (W1 m ρ c (Proc.devRef .tc main_arg0)) (W1 m ρ c (Proc.devRef .tc main_arg2)) = _
  rw [k0, k2]
  rfl

/-- When the second region is entered: its left operand's buffer holds the hidden table. -/
theorem entry_second :
    W4 m ρ c (Proc.devRef .tc main_v48) = hidden m c
    ∧ W4 m ρ c (Proc.devRef .tc main_v1) = srcOf (argE m c)
    ∧ W4 m ρ c (Proc.devRef .tc main_v3) = dstOf (argE m c)
    ∧ W4 m ρ c (Proc.devRef .tc main_v10) = dinvOf (dstOf (argE m c))
    ∧ W4 m ρ c (Proc.devRef .tc main_arg4) = argW2 m c
    ∧ W4 m ρ c (Proc.devRef .tc main_arg5) = argB2 m c := by
  obtain ⟨h, a, b, d, k3, k4, k5⟩ := exit_first m ρ c
  obtain ⟨s1, s3, s10, s4, s5⟩ := first_conv_keeps (W2 m ρ c)
  obtain ⟨r1, r3, r10, r4, r5⟩ := rectified_keeps (W3 m ρ c)
  refine ⟨?_, (r1.trans s1).trans a, (r3.trans s3).trans b, (r10.trans s10).trans d, (r4.trans s4).trans k4, (r5.trans s5).trans k5⟩
  refine (rectified (W3 m ρ c)).trans (congrArg relu128 ((first_conv (W2 m ρ c)).trans ?_))
  rw [h, a, b, d, k3]

/-- When the second region is left: its result buffer holds the hidden table times `W2`. -/
theorem exit_second :
    W5 m ρ c (Proc.devRef .tc main_v49) = proj64 (hidden m c) (argW2 m c)
    ∧ W5 m ρ c (Proc.devRef .tc main_v1) = srcOf (argE m c)
    ∧ W5 m ρ c (Proc.devRef .tc main_v3) = dstOf (argE m c)
    ∧ W5 m ρ c (Proc.devRef .tc main_v10) = dinvOf (dstOf (argE m c))
    ∧ W5 m ρ c (Proc.devRef .tc main_arg5) = argB2 m c := by
  obtain ⟨h, a, b, d, k4, k5⟩ := entry_second m ρ c
  refine ⟨?_, (W5_of_ne m ρ c main_v1 (by decide)).trans a, (W5_of_ne m ρ c main_v3 (by decide)).trans b,
    (W5_of_ne m ρ c main_v10 (by decide)).trans d, (W5_of_ne m ρ c main_arg5 (by decide)).trans k5⟩
  refine (W5_arr m ρ c 2).trans ((Region1.result_eq (V4 m ρ) c).trans ?_)
  show Host.dotGeneral (F := Ideal) (φ₁ := .f32) (φ₂ := .f32) (DotDims.plain 100000 128 64) none
      (W4 m ρ c (Proc.devRef .tc main_v48)) (W4 m ρ c (Proc.devRef .tc main_arg4)) = _
  rw [h, k4]
  rfl

/-- AFTER THE RUN the result buffer holds the network of the six arguments. -/
theorem result_eq :
    W6 m ρ c (Proc.devRef .tc main_v85)
      = gcn (argX m c) (argE m c) (argW1 m c) (argB1 m c) (argW2 m c) (argB2 m c) := by
  obtain ⟨h, a, b, d, k5⟩ := exit_second m ρ c
  refine (second_conv (W5 m ρ c)).trans ?_
  rw [h, a, b, d, k5]
  rfl

end Boundaries

end Cert.KernelIdeal.Result

end
-- ==== Proof.lean ====
/-
  A two-layer graph convolution network, its two matrix products computed by a row-tiled kernel, against the same
  network written with jnp's matrix product — equal over the extended reals.

  Both programs apply the same host operations in the same order (the edge table cut into source and destination ids,
  `deg^(-1/2)` by a scatter-add and an inverse square root, each convolution a gather, a scale, a scatter-add, the self
  term and the bias, a rectified linear unit between the layers); the reference computes `deg^(-1/2)` once per layer, the
  kernel's program once. They differ only in the two products `x W1` and `h W2`: the kernel multiplies 5000 rows at a
  time, through a narrower float format, into a zero accumulator. On the extended reals a change of format is the
  identity and entry `(i, j)` of either product is `∑ k, left (i, k) * weight (k, j)`, the same finite sum over the
  same index set on both sides; the twenty row blocks tile the 100000 rows. So both results are one function `gcn` of
  the six arguments, and no property of the inputs is used.
-/
import proofs.«174465_j8108898255681_1_alg».proof.Defs
import proofs.«174465_j8108898255681_1_alg».proof.Proof.Gen.Kernel
import proofs.«174465_j8108898255681_1_alg».proof.Proof.Gen.Kernel.Frame
import proofs.«174465_j8108898255681_1_alg».proof.Proof.Gen.KernelIdeal
import proofs.«174465_j8108898255681_1_alg».proof.Proof.Gen.KernelIdeal.Frame
import proofs.«174465_j8108898255681_1_alg».proof.Proof.Gen.ReferenceIdeal
import proofs.«174465_j8108898255681_1_alg».proof.Proof.Gen.ReferenceIdeal.Run
import proofs.«174465_j8108898255681_1_alg».proof.Proof.Gen.Pre_finite_inputs
import proofs.«174465_j8108898255681_1_alg».proof.Proof.Layers
import proofs.«174465_j8108898255681_1_alg».proof.Proof.KernelRun
import proofs.«174465_j8108898255681_1_alg».proof.Proof.KernelValue
import Idealize.ShloMosaic.Adequacy
import Idealize.ShloMosaic.Init

noncomputable section

namespace Cert.Proof

open Idealize.ShloMosaic Idealize.ShloMosaic.TcCoe Idealize.SL.Sem

/-- The kernel's program as printed runs and leaves its arguments as launched. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel's program was rewritten for the reading over the extended reals. -/
theorem preserves : Cert.preserves_Kernel_KernelIdeal := trivial

/-- The kernel's run over the extended reals ends with the network of its arguments in the result buffer. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v85)
          = Cert.Gcn.gcn (Cert.KernelIdeal.Result.argX m c) (Cert.KernelIdeal.Result.argE m c) (Cert.KernelIdeal.Result.argW1 m c)
              (Cert.KernelIdeal.Result.argB1 m c) (Cert.KernelIdeal.Result.argW2 m c) (Cert.KernelIdeal.Result.argB2 m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun _ h c => ⟨(h c).1.trans (Cert.KernelIdeal.Result.result_eq m ρ c), (h c).2⟩)
    (Cert.KernelIdeal.Run.run_result (F := Ideal) m ρ)

/-- From memories agreeing on the arguments both programs end with the network of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.Gcn.reference_eq, (hagree c).1, (hagree c).2.1, (hagree c).2.2.1, (hagree c).2.2.2.1, (hagree c).2.2.2.2.1,
    (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
